-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 29
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.MatmulBlock.lean ====
/-
  What the kernel body computes from one block.  The body rounds its [5000, 256] block of x and the whole of w to
  bfloat16 (the identity on extended reals), multiplies them into a zero accumulator, and stores the result; so entry
  (r, c) of what it stores is 0 + Σ_k xblock[r, k] · w[k, c] = Σ_k xblock[r, k] · w[k, c].
-/
import proofs.«126588_j14181982011963_2_alg».proof.Proof.Gen.KernelIdeal.Skeleton
import proofs.«126588_j14181982011963_2_alg».proof.Proof.LibIdx
import Idealize.ShloMosaic.PureOps.Ideal.Laws
import Idealize.ShloMosaic.Lib.ValueIdx

noncomputable section

namespace Cert.KernelIdeal.BlockValue

open Cert.KernelIdeal Cert.KernelIdeal.Gen Idealize.ShloMosaic Idealize.ShloMosaic.ValueIdx Cert.Proof.LibIdx

/-- The left operand of the block product at output entry j and contraction index q is read at (row of j, q). -/
theorem lhs_coords (j : S5000x256.Idx) (q : dot_S5000x256_S256x256_S5000x256_1_0_0_1_n_n.contr.Idx) :
    (dot_S5000x256_S256x256_S5000x256_1_0_0_1_n_n.lhsIdx j q 0).val = (j 0).val
    ∧ (dot_S5000x256_S256x256_S5000x256_1_0_0_1_n_n.lhsIdx j q 1).val = (q ⟨0, by decide⟩).val := by
  refine ⟨?_, dot_S5000x256_S256x256_S5000x256_1_0_0_1_n_n.lhsIdx_val_of_single rfl j q⟩
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The right operand at output entry j and contraction index q is read at (q, column of j). -/
theorem rhs_coords (j : S5000x256.Idx) (q : dot_S5000x256_S256x256_S5000x256_1_0_0_1_n_n.contr.Idx) :
    (dot_S5000x256_S256x256_S5000x256_1_0_0_1_n_n.rhsIdx j q 0).val = (q ⟨0, by decide⟩).val
    ∧ (dot_S5000x256_S256x256_S5000x256_1_0_0_1_n_n.rhsIdx j q 1).val = (j 1).val := by
  refine ⟨dot_S5000x256_S256x256_S5000x256_1_0_0_1_n_n.rhsIdx_val_of_single rfl j q, ?_⟩
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry (r, c) of what the body stores is the sum over k of the x block at (r, k) times w at (k, c). -/
theorem pay_apply (x0 : Vec Ideal S5000x256 .f32) (x1 : Vec Ideal S256x256 .f32) (r : Fin 5000) (c : Fin 256) :
    k0_pay1 (F := Ideal) x0 x1 (ix2 r c) = ∑ k : Fin 256, x0 (ix2 r k) * x1 (ix2 k c) := by
  unfold k0_pay1
  refine (Ideal.matmul_constant_zero_apply dot_S5000x256_S256x256_S5000x256_1_0_0_1_n_n none _ _ (ix2 r c)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have hl := lhs_coords (ix2 r c) ((contrEquiv1 dot_S5000x256_S256x256_S5000x256_1_0_0_1_n_n 256 rfl rfl).symm k)
  have hr := rhs_coords (ix2 r c) ((contrEquiv1 dot_S5000x256_S256x256_S5000x256_1_0_0_1_n_n 256 rfl rfl).symm k)
  have el : dot_S5000x256_S256x256_S5000x256_1_0_0_1_n_n.lhsIdx (ix2 r c)
      ((contrEquiv1 dot_S5000x256_S256x256_S5000x256_1_0_0_1_n_n 256 rfl rfl).symm k) = ix2 r k :=
    ix2_ext _ _ _ hl.1 (hl.2.trans hk)
  have er : dot_S5000x256_S256x256_S5000x256_1_0_0_1_n_n.rhsIdx (ix2 r c)
      ((contrEquiv1 dot_S5000x256_S256x256_S5000x256_1_0_0_1_n_n 256 rfl rfl).symm k) = ix2 k c :=
    ix2_ext _ _ _ (hr.1.trans hk) hr.2
  show x0 (dot_S5000x256_S256x256_S5000x256_1_0_0_1_n_n.lhsIdx (ix2 r c) _) * x1 (dot_S5000x256_S256x256_S5000x256_1_0_0_1_n_n.rhsIdx (ix2 r c) _) = _
  rw [el, er]

end Cert.KernelIdeal.BlockValue

end
-- ==== Proof.Spec.lean ====
/-
  The specification of the dense stage: the product of a [50000, 256] matrix with a [256, 256] matrix over the
  extended reals.  Entry (r, c) of the product is the sum over k of x[r, k] · w[k, c]; addition of extended reals is
  commutative and associative on every input, so the order in which a program adds the 256 products does not matter and
  no finiteness of the inputs is needed to state or to use this function.
-/
import Idealize.ShloMosaic.PureOps.Ideal
import Idealize.ShloMosaic.Lib.ValueIdx

noncomputable section

namespace Cert.Spec

open Idealize.ShloMosaic Idealize.ShloMosaic.ValueIdx

/-- The matrix product x · w, entry by entry: (x · w)[r, c] = Σ_k x[r, k] · w[k, c]. -/
def xw (x : (⟨2, ![50000, 256]⟩ : Shape).Idx → EReal) (w : (⟨2, ![256, 256]⟩ : Shape).Idx → EReal) :
    (⟨2, ![50000, 256]⟩ : Shape).Idx → EReal :=
  fun i => ∑ k : Fin 256, x (ix2 (⟨(i 0).val, (i 0).isLt⟩ : Fin 50000) k) * w (ix2 k (⟨(i 1).val, (i 1).isLt⟩ : Fin 256))

end Cert.Spec

end
-- ==== Proof.KernelArray.lean ====
/-
  The array the kernel's region leaves.  The grid has ten points; point t works on rows 5000·t … 5000·t + 4999: it reads
  that block of x and the whole of w, and writes that block of the result.  Entry (r, c) of what point t writes is the sum
  over k of x[5000·t + r, k] · w[k, c], which is entry (5000·t + r, c) of the product x · w; the ten blocks tile the
  50000 rows, so after the region the result array is x · w everywhere.
-/
import proofs.«126588_j14181982011963_2_alg».proof.Proof.Gen.KernelIdeal.Frame
import proofs.«126588_j14181982011963_2_alg».proof.Proof.MatmulBlock
import proofs.«126588_j14181982011963_2_alg».proof.Proof.Spec
import proofs.«126588_j14181982011963_2_alg».proof.Proof.LibIdx
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Proof.LibIdx

variable (m : (ℓ : Loc nD τ sig) → Buf (Elt Ideal) ℓ)

theorem origin : (![0, 0] : Fin 2 → Nat) = fun _ => 0 := funext fun a => by fin_cases a <;> rfl

/-- The block maps over the ten points: the x block and the result block of point t are both block row t, the only
    block column is 0, and w is read whole at every point. -/
theorem block_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block row is some point's. -/
theorem block_onto : ∀ q : Fin 10, ∃ t : Fin cfg0.N, win0_2.index t = ![q.val, 0] :=
  (by decide +kernel : ∀ q : Fin 10, ∃ t : Fin grid0.N, win0_2.index t = ![q.val, 0])

/-- One entry of a stored block against one entry of the product: if the x block's row r is row R of x and the w block is
    w itself, entry (r, c) of what the body stores is entry (R, c) of x · w. -/
theorem entry_eq (X : S50000x256.Idx → EReal) (W : S256x256.Idx → EReal)
    (x0 : Vec Ideal S5000x256 .f32) (x1 : Vec Ideal S256x256 .f32) (r : Fin 5000) (c : Fin 256) (i : S50000x256.Idx)
    (hc : (i 1).val = c.val)
    (h0 : ∀ k : Fin 256, x0 (ix2 r k) = X (ix2 (⟨(i 0).val, (i 0).isLt⟩ : Fin 50000) k))
    (h1 : ∀ k : Fin 256, x1 (ix2 k c) = W (ix2 k (⟨(i 1).val, (i 1).isLt⟩ : Fin 256))) :
    k0_pay1 (F := Ideal) x0 x1 (ix2 r c) = Cert.Spec.xw X W i := by
  refine (BlockValue.pay_apply x0 x1 r c).trans ?_
  unfold Cert.Spec.xw
  exact Finset.sum_congr rfl fun k _ => by rw [h0 k, h1 k]

/-- What point t writes back is block t of the product of x and w as the region finds them. -/
theorem flushed_eq (c : Dev nD) (t : Fin cfg0.N) :
    (dats m 0 c).flushed 2 t
      = ((cfg0.win 2).blk t).view.read (Elt Ideal) (Cert.Spec.xw (V m c main_arg0) (V m c main_arg4)) := by
  show (cfg0.win 2).cut (grid0.coords t) ((dats m 0 c).after 2 t) = _
  rw [after0_2]
  unfold out0_2
  rw [View.canon_unit_zero origin]
  simp only [View.ld_unit_zero (S := S5000x256) origin, View.ld_unit_zero (S := S256x256) origin]
  obtain ⟨e0, e1, e2, e3, e4, e5⟩ := block_maps t
  funext j
  obtain ⟨r, q, rfl⟩ : ∃ (r : Fin 5000) (q : Fin 256), j = ix2 r q := ⟨j 0, j 1, eq_ix2 j⟩
  show k0_pay1 (F := Ideal) (iblk m c 0 t) (iblk m c 1 t) (ix2 r q)
    = Cert.Spec.xw (V m c main_arg0) (V m c main_arg4) (((cfg0.win 2).blk t).view.emb (ix2 r q))
  refine entry_eq (V m c main_arg0) (V m c main_arg4) (iblk m c 0 t) (iblk m c 1 t) r q
    (((cfg0.win 2).blk t).view.emb (ix2 r q)) ?_ (fun k => ?_) (fun k => ?_)
  · show win0_2.index t (1 : Fin 2) * 256 + 1 * q.val = q.val
    omega
  · show V m c main_arg0 (((cfg0.win 0).blk t).view.emb (ix2 r k)) = V m c main_arg0 _
    refine congrArg (V m c main_arg0) (ix2_ext _ _ _ ?_ ?_)
    · show win0_0.index t (0 : Fin 2) * 5000 + 1 * r.val = win0_2.index t (0 : Fin 2) * 5000 + 1 * r.val
      omega
    · show win0_0.index t (1 : Fin 2) * 256 + 1 * k.val = k.val
      omega
  · show V m c main_arg4 (((cfg0.win 1).blk t).view.emb (ix2 k q)) = V m c main_arg4 _
    refine congrArg (V m c main_arg4) (ix2_ext _ _ _ ?_ ?_)
    · show win0_1.index t (0 : Fin 2) * 256 + 1 * k.val = k.val
      omega
    · show win0_1.index t (1 : Fin 2) * 256 + 1 * q.val = win0_2.index t (1 : Fin 2) * 256 + 1 * q.val
      omega

/-- An index of the result array lies in point t's block iff each coordinate lies in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v0).slice (win0_2.rect t)).set ↔ _
  rw [View.set_slice_whole, Rect.mem_set_unit]
  exact Iff.rfl

/-- The ten blocks cover the result array: row R lies in the block of point R / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the region the result array is the product of the argument arrays x and w. -/
theorem final (c : Dev nD) :
    (dats m 0 c).arrAt 2 cfg0.N
      = Cert.Spec.xw (m ((c : Thread nD τ).loc main_arg0)) (m ((c : Thread nD τ).loc main_arg4)) :=
  ((dats m 0 c).arrAt_eq_of_cover 2 (Cert.Spec.xw (V m c main_arg0) (V m c main_arg4))
    (fun t _ => flushed_eq m c t) cover).trans (by rw [V_main_arg0, V_main_arg4])

end Cert.KernelIdeal.ArrayValue

end
-- ==== Proof.Tail.lean ====
/-
  The sparse stage and the epilogue as ONE function of the dense stage's result y.  The programs wrap negative column
  indices (c < 0 becomes c + 50000), gather row c of y for every edge, scale it by the edge's value, add the scaled rows
  into a zero array at the edges' row indices, add the bias to every row, and take the maximum with zero.  Both programs
  apply exactly these operations; only y differs in how it is computed, so nothing here is ever opened: the two results
  are equal as soon as the two y are.  The function is stated for any interpretation F of the float operations; the
  certificate uses it at the extended reals.
-/
import proofs.«126588_j14181982011963_2_alg».proof.Proof.Gen.KernelIdeal.Launch
import Idealize.ShloMosaic.Lib.StableHlo.Run

noncomputable section

namespace Cert.KernelIdeal.TailValue

open Cert.KernelIdeal Cert.KernelIdeal.Gen Idealize.ShloMosaic Idealize.ShloMosaic.TcCoe Idealize.SL.Sem
open Idealize.ShloMosaic.StableHlo

variable {F : FTy → Type} [FloatOps F]

/-- relu (segment_sum (vals · y[cols], rows) + bias), over the edge rows x1, edge columns x2, edge values x3 and bias x5. -/
def tail (y : FVec F S50000x256 .f32) (x1 x2 : IVec S800000 32) (x3 : FVec F S800000 .f32)
    (x5 : FVec F S256 .f32) : FVec F S50000x256 .f32 :=
  maximumf
    (addf
      (Host.scatterAdd scatter_S50000x256_S800000x1_S800000x256_1_0_0_1
        (broadcastInDim S50000x256 ![] bcast_S_S50000x256 (constant (F := F) S_ .f32 0x00000000#32))
        (broadcastInDim S800000x1 ![0] bcast_S800000_S800000x1_0 x1)
        (mulf
          (broadcastInDim S800000x256 ![0, 1] bcast_S800000x1_S800000x256_0_1
            (broadcastInDim S800000x1 ![0] bcast_S800000_S800000x1_0 x3))
          (Host.gather gather_S50000x256_S800000x1_S800000x256_1_0_n_n_0_1_1256 y
            (broadcastInDim S800000x1 ![0] bcast_S800000_S800000x1_0
              (select (cmpi .slt x2 (broadcastInDim S800000 ![] bcast_S_S800000 (constantI S_ 32 0#32)))
                (addi x2 (broadcastInDim S800000 ![] bcast_S_S800000 (constantI S_ 32 50000#32))) x2)))))
      (broadcastInDim S50000x256 ![0, 1] bcast_S1x256_S50000x256_0_1
        (broadcastInDim S1x256 ![1] bcast_S256_S1x256_1 x5)))
    (broadcastInDim S50000x256 ![] bcast_S_S50000x256 (constant (F := F) S_ .f32 0x00000000#32))

set_option maxHeartbeats 2000000 in
/-- The host lines after the region, run from any buffer contents A, leave in the result buffer the function above of
    what A holds in the region's result array and in the four other arguments. -/
theorem tail_read (A : Valuation τ sig (Elt F)) :
    StableHlo.after (List.flatten [hostOps1, hostOps1_1]) A (Proc.devRef .tc main_v17)
      = tail (F := F) (A (Proc.devRef .tc main_v0)) (A (Proc.devRef .tc main_arg1)) (A (Proc.devRef .tc main_arg2))
          (A (Proc.devRef .tc main_arg3)) (A (Proc.devRef .tc main_arg5)) := by
  unfold tail
  simp only [hostOps1, hostOps1_1, List.flatten_cons, List.flatten_nil, List.append_nil, List.cons_append, List.nil_append]
  after_results_simp
  rfl

end Cert.KernelIdeal.TailValue

end
-- ==== Proof.KernelRun.lean ====
/-
  The idealized kernel's run, read.  The region leaves the product x · w in its result array; the host lines after it
  compute the sparse stage and the epilogue from that array and from the four other arguments, none of which the region
  or the lines touch.  So every execution ends with the result buffer at tail (x · w) of the arguments, and the argument
  arrays as they were.
-/
import proofs.«126588_j14181982011963_2_alg».proof.Proof.Gen.KernelIdeal.Frame
import proofs.«126588_j14181982011963_2_alg».proof.Proof.KernelArray
import proofs.«126588_j14181982011963_2_alg».proof.Proof.Tail

noncomputable section

namespace Cert.KernelIdeal.RunValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffer contents the host lines after the region start from: the region's arrays as the region leaves them,
    every other buffer as launched. -/
abbrev exitVal (c : Dev nD) : Valuation τ sig (Elt Ideal) :=
  Pipeline.withArrays (cfgs 0).spec c (V0 m c) fun w => (dats m 0 c).arrAt w (cfgs 0).N

/-- There the region's result array holds the product x · w. -/
theorem exit_v0 (c : Dev nD) :
    exitVal m c (Proc.devRef .tc main_v0)
      = Cert.Spec.xw (m ((c : Thread nD τ).loc main_arg0)) (m ((c : Thread nD τ).loc main_arg4)) :=
  (Pipeline.withArrays_arr spec0 launch0.win.arr_inj c _ _ 2).trans (ArrayValue.final m c)

/-- The edge rows, edge columns, edge values and the bias are no array of the region: they are as launched. -/
theorem exit_arg1 (c : Dev nD) : exitVal m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)
theorem exit_arg2 (c : Dev nD) : exitVal m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)
theorem exit_arg3 (c : Dev nD) : exitVal m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem exit_arg5 (c : Dev nD) : exitVal m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

/-- What the result buffer holds after the host lines that follow the region. -/
theorem result_eq (c : Dev nD) :
    Pipeline.afterTail₀ cfgs (dats m) 0 (V0 m) [hostOps1, hostOps1_1] c main_v17
      = TailValue.tail (F := Ideal) (Cert.Spec.xw (m ((c : Thread nD τ).loc main_arg0)) (m ((c : Thread nD τ).loc main_arg4)))
          (m ((c : Thread nD τ).loc main_arg1)) (m ((c : Thread nD τ).loc main_arg2))
          (m ((c : Thread nD τ).loc main_arg3)) (m ((c : Thread nD τ).loc main_arg5)) := by
  unfold Pipeline.afterTail₀
  refine (TailValue.tail_read (F := Ideal) (exitVal m c)).trans ?_
  rw [exit_v0, exit_arg1, exit_arg2, exit_arg3, exit_arg5]

/-- Every weakly fair execution of the idealized kernel terminates with the result at tail (x · w) of the arguments and
    the arguments unchanged. -/
theorem run : θ_run defs (onTc (τ := τ) (main (F := Ideal))) ⟨m, fun _ => 0, ρ⟩ fun r => ∀ c : Dev nD,
      r.2.mem ((c.tc : Thread nD τ).loc main_v17)
        = TailValue.tail (F := Ideal) (Cert.Spec.xw (m ((c : Thread nD τ).loc main_arg0)) (m ((c : Thread nD τ).loc main_arg4)))
            (m ((c : Thread nD τ).loc main_arg1)) (m ((c : Thread nD τ).loc main_arg2))
            (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.RefMatmul.lean ====
/-
  The reference's dense stage is the specification: its `dot_general` contracts axis 1 of x with axis 0 of w, so at the
  ideal instance its entry (r, c) is the sum over k of x[r, k] · w[k, c] — the left operand read at (r, k), the right at
  (k, c).
-/
import proofs.«126588_j14181982011963_2_alg».proof.Proof.Gen.ReferenceIdeal.Read
import proofs.«126588_j14181982011963_2_alg».proof.Proof.Spec
import proofs.«126588_j14181982011963_2_alg».proof.Proof.LibIdx

noncomputable section

namespace Cert.ReferenceIdeal.RefValue

open Cert.ReferenceIdeal Cert.ReferenceIdeal.Gen Idealize.ShloMosaic Idealize.ShloMosaic.ValueIdx Cert.Proof.LibIdx

/-- The reference's contraction of x with w is the matrix product of the specification. -/
theorem dot_eq (x0 : FVec Ideal S50000x256 .f32) (x4 : FVec Ideal S256x256 .f32) :
    Host.dotGeneral dot_S50000x256_S256x256_S50000x256_1_0_0_1_n_n none x0 x4 = Cert.Spec.xw x0 x4 := by
  funext i
  show Read.val_main_v0 (F := Ideal) x0 x4 i = _
  refine (Read.val_main_v0_apply x0 x4 i).trans ?_
  unfold Cert.Spec.xw
  refine Finset.sum_congr rfl fun k _ => ?_
  have el : Read.lidx_main_v0 i k = ix2 (⟨(i 0).val, (i 0).isLt⟩ : Fin 50000) k := ix2_ext _ _ _ rfl rfl
  have er : Read.ridx_main_v0 i k = ix2 k (⟨(i 1).val, (i 1).isLt⟩ : Fin 256) := ix2_ext _ _ _ rfl rfl
  rw [el, er]

end Cert.ReferenceIdeal.RefValue

end
-- ==== Proof.RefTail.lean ====
/-
  The reference's result is the shared sparse stage and epilogue applied to ITS dense stage, the contraction of x with
  w; and that contraction is the matrix product x · w.  So the reference ends at tail (x · w) of its arguments.
-/
import proofs.«126588_j14181982011963_2_alg».proof.Proof.Gen.ReferenceIdeal.Read
import proofs.«126588_j14181982011963_2_alg».proof.Proof.RefMatmul
import proofs.«126588_j14181982011963_2_alg».proof.Proof.Tail

noncomputable section

namespace Cert.ReferenceIdeal.RefValue

open Cert.ReferenceIdeal Cert.ReferenceIdeal.Gen Idealize.ShloMosaic

/-- Operation by operation the reference's lines after its contraction are the shared function: for any interpretation
    of the float operations the two terms are the same term. -/
theorem result_tail {F : FTy → Type} [FloatOps F] (x0 : FVec F S50000x256 .f32) (x1 x2 : IVec S800000 32)
    (x3 : FVec F S800000 .f32) (x4 : FVec F S256x256 .f32) (x5 : FVec F S256 .f32) :
    Read.val_main_v17 (F := F) x0 x1 x2 x3 x4 x5
      = Cert.KernelIdeal.TailValue.tail (F := F)
          (Host.dotGeneral dot_S50000x256_S256x256_S50000x256_1_0_0_1_n_n none x0 x4) x1 x2 x3 x5 := rfl

/-- At the extended reals the reference ends at tail (x · w). -/
theorem result_eq (x0 : FVec Ideal S50000x256 .f32) (x1 x2 : IVec S800000 32)
    (x3 : FVec Ideal S800000 .f32) (x4 : FVec Ideal S256x256 .f32) (x5 : FVec Ideal S256 .f32) :
    Read.val_main_v17 (F := Ideal) x0 x1 x2 x3 x4 x5
      = Cert.KernelIdeal.TailValue.tail (F := Ideal) (Cert.Spec.xw x0 x4) x1 x2 x3 x5 :=
  (result_tail x0 x1 x2 x3 x4 x5).trans (by rw [dot_eq])

end Cert.ReferenceIdeal.RefValue

end
-- ==== Proof.lean ====
/- The proof of `Cert.Claim`: a graph-convolution layer, relu (segment_sum (vals · (x · w)[cols], rows) + bias).
   The kernel computes the dense stage x · w in a region of ten row blocks (each block a bfloat16-rounded product into a
   zero accumulator: at the extended reals, Σ_k x[r, k] · w[k, c]); the reference computes it as one contraction.  Both then
   apply the same host lines — gather, scale, scatter-add, bias, maximum with zero — to that array.
   Proof/Spec.lean states the product; Proof/RefMatmul.lean shows the reference's contraction is it;
   Proof/MatmulBlock.lean reads one entry of one stored block and Proof/KernelArray.lean assembles the ten blocks into the
   array; Proof/Tail.lean names the shared host lines as one function, Proof/KernelRun.lean and Proof/RefTail.lean read the
   two runs' results as that function of x · w.  No step uses the finiteness of the inputs: the two sums have the same
   terms, and 0 + s = s for every extended real s.  The idealized kernel is the kernel's own text read at the extended
   reals (no operation of it was rewritten), so the claim that it is the kernel's idealization is trivial. -/
import proofs.«126588_j14181982011963_2_alg».proof.Defs
import proofs.«126588_j14181982011963_2_alg».proof.Proof.Gen.Kernel
import proofs.«126588_j14181982011963_2_alg».proof.Proof.Gen.Kernel.Skeleton
import proofs.«126588_j14181982011963_2_alg».proof.Proof.Gen.Kernel.Launch
import proofs.«126588_j14181982011963_2_alg».proof.Proof.Gen.Kernel.Points
import proofs.«126588_j14181982011963_2_alg».proof.Proof.Gen.Kernel.Frame
import proofs.«126588_j14181982011963_2_alg».proof.Proof.Gen.KernelIdeal
import proofs.«126588_j14181982011963_2_alg».proof.Proof.Gen.KernelIdeal.Skeleton
import proofs.«126588_j14181982011963_2_alg».proof.Proof.Gen.KernelIdeal.Launch
import proofs.«126588_j14181982011963_2_alg».proof.Proof.Gen.KernelIdeal.Points
import proofs.«126588_j14181982011963_2_alg».proof.Proof.Gen.KernelIdeal.Frame
import proofs.«126588_j14181982011963_2_alg».proof.Proof.Gen.ReferenceIdeal
import proofs.«126588_j14181982011963_2_alg».proof.Proof.Gen.Pre_finite_inputs
import proofs.«126588_j14181982011963_2_alg».proof.Proof.Gen.ReferenceIdeal.Run
import proofs.«126588_j14181982011963_2_alg».proof.Proof.Gen.ReferenceIdeal.Read
import proofs.«126588_j14181982011963_2_alg».proof.Proof.KernelRun
import proofs.«126588_j14181982011963_2_alg».proof.Proof.RefTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at tail (x · w) of arguments that agree. -/
theorem algebraic : Cert.algebraic_KernelIdeal_ReferenceIdeal := by
  intro m ρ m' ρ' _ hagree
  refine ⟨fun c => Cert.KernelIdeal.TailValue.tail (F := Ideal)
      (Cert.Spec.xw (m ((c.tc : Thread Cert.KernelIdeal.nD Cert.KernelIdeal.τ).loc Cert.KernelIdeal.main_arg0))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq (F := Ideal) _ _ _ _ _ _).trans
    (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
